-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S100000x64 .f32) (main_arg2 : IVec S1000000 32) (main_arg3 : IVec S1000000 32) (main_arg4 : FVec F S64x128 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S64x64 : Shape := ⟨2, ![64, 64]⟩
abbrev S1x64 : Shape := ⟨2, ![1, 64]⟩
abbrev S5000x64 : Shape := ⟨2, ![5000, 64]⟩

abbrev nBuf : Space → Nat
  | .hbm => 37
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .f32⟩
  | .hbm, ⟨16, _⟩ => ⟨S100000x64, .f32⟩
  | .hbm, ⟨17, _⟩ => ⟨S1000000x1, .i32⟩
  | .hbm, ⟨18, _⟩ => ⟨S100000x64, .f32⟩
  | .hbm, ⟨19, _⟩ => ⟨S_, .f32⟩
  | .hbm, ⟨20, _⟩ => ⟨S1000000, .f32⟩
  | .hbm, ⟨21, _⟩ => ⟨S_, .f32⟩
  | .hbm, ⟨22, _⟩ => ⟨S100000, .f32⟩
  | .hbm, ⟨23, _⟩ => ⟨S1000000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S1x64, .f32⟩
  | .hbm, ⟨36, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .f32⟩
  | .hbm, ⟨16, _⟩ => ⟨S100000x64, .f32⟩
  | .hbm, ⟨17, _⟩ => ⟨S1000000x1, .i32⟩
  | .hbm, ⟨18, _⟩ => ⟨S100000x64, .f32⟩
  | .hbm, ⟨19, _⟩ => ⟨S_, .f32⟩
  | .hbm, ⟨20, _⟩ => ⟨S1000000, .f32⟩
  | .hbm, ⟨21, _⟩ => ⟨S_, .f32⟩
  | .hbm, ⟨22, _⟩ => ⟨S100000, .f32⟩
  | .hbm, ⟨23, _⟩ => ⟨S1000000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x128, .f32⟩
  | .hbm, ⟨32, _⟩ => ⟨S128x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.TwoHalves.lean ====
/-
  The layer's value, written once: row `i` of the self features and row `i` of the neighbour means each meet their own
  64 × 64 weight (contracted over the 64 features), the two products are added, and the bias row is added to every row:

      out (i, j) = (∑ k, a (i, k) · w₁ (k, j)  +  ∑ k, n (i, k) · w₂ (k, j))  +  b (0, j).

  Stated over any number of rows `R`, so that one block of rows and the whole array are instances of the same function.
  Sums and products are those of the extended reals; nothing here needs a finite value.
-/
import Idealize.ShloMosaic.PureOps.Ideal
import Idealize.ShloMosaic.Lib.ValueIdx

noncomputable section

namespace Cert.Proof.TwoHalves

open Idealize.ShloMosaic Idealize.ShloMosaic.ValueIdx

/-- Two half-width products and a bias row, at the entry `(p, q)` of an `R × 64` result. -/
def entry {R : ℕ} (a n : (⟨2, ![R, 64]⟩ : Shape).Idx → EReal) (w₁ w₂ : (⟨2, ![64, 64]⟩ : Shape).Idx → EReal)
    (b : (⟨2, ![1, 64]⟩ : Shape).Idx → EReal) (p : Fin R) (q : Fin 64) : EReal :=
  (∑ k : Fin 64, a (ix2 p k) * w₁ (ix2 k q) + ∑ k : Fin 64, n (ix2 p k) * w₂ (ix2 k q)) + b (ix2 (0 : Fin 1) q)

/-- The same as a whole `R × 64` array. -/
def out {R : ℕ} (a n : (⟨2, ![R, 64]⟩ : Shape).Idx → EReal) (w₁ w₂ : (⟨2, ![64, 64]⟩ : Shape).Idx → EReal)
    (b : (⟨2, ![1, 64]⟩ : Shape).Idx → EReal) : (⟨2, ![R, 64]⟩ : Shape).Idx → EReal :=
  fun i => entry a n w₁ w₂ b (i 0) (i 1)

theorem out_ix2 {R : ℕ} (a n : (⟨2, ![R, 64]⟩ : Shape).Idx → EReal) (w₁ w₂ : (⟨2, ![64, 64]⟩ : Shape).Idx → EReal)
    (b : (⟨2, ![1, 64]⟩ : Shape).Idx → EReal) (p : Fin R) (q : Fin 64) :
    out a n w₁ w₂ b (ix2 p q) = entry a n w₁ w₂ b p q := rfl

/-- An entry depends on the feature arrays only through its own row, on the weights only through one column and on the
    bias row only through one entry: if rows `p` of `a`, `n` are rows `p'` of `a'`, `n'`, and the weights and bias rows
    agree on column `q`, the entries agree. This is what lets a block of rows be computed from the block alone. -/
theorem entry_congr {R R' : ℕ} (a n : (⟨2, ![R, 64]⟩ : Shape).Idx → EReal) (a' n' : (⟨2, ![R', 64]⟩ : Shape).Idx → EReal)
    (w₁ w₂ w₁' w₂' : (⟨2, ![64, 64]⟩ : Shape).Idx → EReal) (b b' : (⟨2, ![1, 64]⟩ : Shape).Idx → EReal)
    (p : Fin R) (p' : Fin R') (q : Fin 64)
    (ha : ∀ k : Fin 64, a (ix2 p k) = a' (ix2 p' k)) (hn : ∀ k : Fin 64, n (ix2 p k) = n' (ix2 p' k))
    (hw₁ : ∀ k : Fin 64, w₁ (ix2 k q) = w₁' (ix2 k q)) (hw₂ : ∀ k : Fin 64, w₂ (ix2 k q) = w₂' (ix2 k q))
    (hb : b (ix2 (0 : Fin 1) q) = b' (ix2 (0 : Fin 1) q)) :
    entry a n w₁ w₂ b p q = entry a' n' w₁' w₂' b' p' q := by
  unfold entry
  simp only [ha, hn, hw₁, hw₂, hb]

/-! ## The weight's two halves and the bias row, read off the arguments

The layer's 64 × 128 weight `W` acts on the concatenation `[self | neighbour mean]` as `x ↦ x · Wᵀ`: its left 64 columns meet
the self features, its right 64 columns the neighbour means. -/

/-- The transposed left half of the weight: entry `(k, q)` is `W (q, k)`. -/
def leftHalfT (W : (⟨2, ![64, 128]⟩ : Shape).Idx → EReal) : (⟨2, ![64, 64]⟩ : Shape).Idx → EReal :=
  fun j => W (ix2 (j 1) ⟨(j 0).val, Nat.lt_of_lt_of_le (j 0).isLt (by decide)⟩)

/-- The transposed right half: entry `(k, q)` is `W (q, 64 + k)`. -/
def rightHalfT (W : (⟨2, ![64, 128]⟩ : Shape).Idx → EReal) : (⟨2, ![64, 64]⟩ : Shape).Idx → EReal :=
  fun j => W (ix2 (j 1) ⟨64 + (j 0).val, Nat.add_lt_add_left (j 0).isLt 64⟩)

/-- The 64 biases as one row. -/
def biasRow (b : (⟨1, ![64]⟩ : Shape).Idx → EReal) : (⟨2, ![1, 64]⟩ : Shape).Idx → EReal :=
  fun j => b (ix1 (j 1))

end Cert.Proof.TwoHalves

end
-- ==== Proof.BlockEntry.lean ====
/-
  What the kernel body stores for one block of rows, entry by entry.

  The body loads a block of 5000 rows of the self features and of the neighbour means, the two 64 × 64 weights and the
  bias row; it rounds the four matrices to bf16 (the identity on extended reals), multiplies each feature block with
  its weight on the matrix unit into a zero accumulator, adds the two products and adds the bias row broadcast down
  the rows. Read at the entry `(p, q)` of the block: a matrix product into zero is the plain sum over the 64
  contracted positions, a shape cast onto the same shape changes nothing, and a `[1, 64]` row broadcast to
  `[5000, 64]` is that row at `q`. So the stored entry is `TwoHalves.entry` of the loaded blocks.
-/
import proofs.«179269_j74526272520731_1_alg».proof.Proof.Gen.KernelIdeal.Skeleton
import proofs.«179269_j74526272520731_1_alg».proof.Proof.TwoHalves
import Idealize.ShloMosaic.PureOps.Ideal.Laws
import Idealize.ShloMosaic.Lib.Pipeline.Value
import Idealize.ShloMosaic.Lib.ValueIdx
import Idealize.ShloMosaic.Lib.ValueLayout

noncomputable section

namespace Cert.Proof.BlockEntry

open Cert.KernelIdeal Cert.KernelIdeal.Gen Idealize.ShloMosaic Idealize.ShloMosaic.ValueIdx

/-- Row coordinate of the left operand's index of the 5000 × 64 by 64 × 64 product: the output's row. -/
theorem lhs_row (i : S5000x64.Idx) (σ : dot_S5000x64_S64x64_S5000x64_1_0_0_1_n_n.contr.Idx) :
    (dot_S5000x64_S64x64_S5000x64_1_0_0_1_n_n.lhsIdx i σ 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- Its column coordinate: the contracted position. -/
theorem lhs_col (i : S5000x64.Idx) (σ : dot_S5000x64_S64x64_S5000x64_1_0_0_1_n_n.contr.Idx) :
    (dot_S5000x64_S64x64_S5000x64_1_0_0_1_n_n.lhsIdx i σ 1).val = (σ ⟨0, by decide⟩).val :=
  dot_S5000x64_S64x64_S5000x64_1_0_0_1_n_n.lhsIdx_val_of_single rfl i σ

/-- Row coordinate of the right operand's index: the contracted position. -/
theorem rhs_row (i : S5000x64.Idx) (σ : dot_S5000x64_S64x64_S5000x64_1_0_0_1_n_n.contr.Idx) :
    (dot_S5000x64_S64x64_S5000x64_1_0_0_1_n_n.rhsIdx i σ 0).val = (σ ⟨0, by decide⟩).val :=
  dot_S5000x64_S64x64_S5000x64_1_0_0_1_n_n.rhsIdx_val_of_single rfl i σ

/-- Its column coordinate: the output's column. -/
theorem rhs_col (i : S5000x64.Idx) (σ : dot_S5000x64_S64x64_S5000x64_1_0_0_1_n_n.contr.Idx) :
    (dot_S5000x64_S64x64_S5000x64_1_0_0_1_n_n.rhsIdx i σ 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- So at the output entry `(p, q)` and the contracted position `k` the left operand is read at `(p, k)`, -/
theorem lhs_at (p : Fin 5000) (q : Fin 64) (k : Fin 64) :
    dot_S5000x64_S64x64_S5000x64_1_0_0_1_n_n.lhsIdx (ix2 p q)
        ((contrEquiv1 dot_S5000x64_S64x64_S5000x64_1_0_0_1_n_n 64 rfl rfl).symm k) = (ix2 p k : S5000x64.Idx) := by
  have hk := contrEquiv1_symm_val dot_S5000x64_S64x64_S5000x64_1_0_0_1_n_n 64 rfl rfl k
  exact funext fun a => Fin.ext (by
    match a with
    | ⟨0, _⟩ => exact lhs_row _ _
    | ⟨1, _⟩ => exact (lhs_col _ _).trans hk)

/-- and the right operand at `(k, q)`. -/
theorem rhs_at (p : Fin 5000) (q : Fin 64) (k : Fin 64) :
    dot_S5000x64_S64x64_S5000x64_1_0_0_1_n_n.rhsIdx (ix2 p q)
        ((contrEquiv1 dot_S5000x64_S64x64_S5000x64_1_0_0_1_n_n 64 rfl rfl).symm k) = (ix2 k q : S64x64.Idx) := by
  have hk := contrEquiv1_symm_val dot_S5000x64_S64x64_S5000x64_1_0_0_1_n_n 64 rfl rfl k
  exact funext fun a => Fin.ext (by
    match a with
    | ⟨0, _⟩ => exact (rhs_row _ _).trans hk
    | ⟨1, _⟩ => exact rhs_col _ _)

/-- The matrix unit's product of a 5000 × 64 block with a 64 × 64 weight into a zero accumulator, at the entry
    `(p, q)`: the sum over the 64 contracted positions. -/
theorem product_entry {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  rw [lhs_at p q k, rhs_at p q k]

/-- The bias row broadcast down the 5000 rows, at `(p, q)`, is the row at `q`. -/
theorem bias_entry (x4 : Vec Ideal S1x64 .f32) (p : Fin 5000) (q : Fin 64) :
    broadcastTo S5000x64 (shapeCast S1x64 x4 shapeCasts_S1x64_S1x64) broadcasts_S1x64_S5000x64 (ix2 p q) = x4 (ix2 (0 : Fin 1) q) := by
  refine (broadcastTo_1b_ab_apply (shapeCast S1x64 x4 shapeCasts_S1x64_S1x64) broadcasts_S1x64_S5000x64 p q).trans ?_
  rw [shapeCast_self]

/-- THE STORED ENTRY: the body's one stored value, at `(p, q)`, is the two half-width products plus the bias of the
    loaded blocks. -/
theorem stored_entry (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q) = TwoHalves.entry x0 x1 x2 x3 x4 p q := by
  unfold k0_pay1 TwoHalves.entry
  refine congrArg₂ (· + ·) (congrArg₂ (· + ·) ?_ ?_) (bias_entry x4 p q)
  · refine (product_entry _ _ p q).trans ?_
    simp only [shapeCast_self]
    rfl
  · refine (product_entry _ _ p q).trans ?_
    simp only [shapeCast_self]
    rfl

/-- The same at an index of the block not yet split into its row and column. -/
theorem stored_at (x0 x1 : Vec Ideal S5000x64 .f32) (x2 x3 : Vec Ideal S64x64 .f32) (x4 : Vec Ideal S1x64 .f32)
    (j : S5000x64.Idx) :
    k0_pay1 (F := Ideal) x0 x1 x2 x3 x4 j = TwoHalves.entry x0 x1 x2 x3 x4 (j 0) (j 1) :=
  (congrArg (k0_pay1 (F := Ideal) x0 x1 x2 x3 x4) (eq_ix2 j)).trans (stored_entry x0 x1 x2 x3 x4 (j 0) (j 1))

end Cert.Proof.BlockEntry

end
-- ==== Proof.BlockReads.lean ====
/-
  The launch's 20 points and the blocks they read.

  Point `t` works on rows `5000·t … 5000·t + 4999`: the windows over the self features and over the neighbour means move
  down the rows with the output's window, the windows over the two weights and over the bias row stay on their whole
  arrays. Read through its window, row `p` of a feature block is row `5000·(block index) + p` of the array, and a
  weight or bias block is the array itself. Each fact is stated for an arbitrary array under the window: what the
  array holds plays no part.
-/
import proofs.«179269_j74526272520731_1_alg».proof.Proof.Gen.KernelIdeal.Frame
import Idealize.ShloMosaic.Lib.ValueIdx

set_option maxRecDepth 16384

noncomputable section

namespace Cert.Proof.BlockReads

open Cert.KernelIdeal Cert.KernelIdeal.Gen Idealize.ShloMosaic Idealize.ShloMosaic.TcCoe Idealize.SL.Sem
  Idealize.ShloMosaic.ValueIdx
open Idealize.ShloMosaic.Pipeline (Dat)
open Cert.Proof

/-- The printed index maps, decided over the 20 points: the two feature windows move with the output window down the
    rows and stay at column block 0; the weights' and the bias's windows stay at block (0, 0); the output's row block
    index is at most 19. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-! ## The input blocks, read where the output's block says -/

/-- Row `p` of point `t`'s block of the first feature window is row `r` of its array, `r = 5000 · (block index) + p`. -/
theorem self_read (A : S100000x64.Idx → EReal) (t : Fin cfg0.N) (p : Fin 5000) (k : Fin 64) (r : Fin 100000) (hr : r.val = win0_5.index t (0 : Fin 2) * 5000 + p.val) :
    ((cfg0.win 0).blk t).view.read (Elt Ideal) A (ix2 p k) = A (ix2 r k) := by
  obtain ⟨e00, e01, e10, e11, e20, e21, e30, e31, e40, e41, -⟩ := index_facts t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega
/-- The same for the second feature window. -/
theorem means_read (A : S100000x64.Idx → EReal) (t : Fin cfg0.N) (p : Fin 5000) (k : Fin 64) (r : Fin 100000) (hr : r.val = win0_5.index t (0 : Fin 2) * 5000 + p.val) :
    ((cfg0.win 1).blk t).view.read (Elt Ideal) A (ix2 p k) = A (ix2 r k) := by
  obtain ⟨e00, e01, e10, e11, e20, e21, e30, e31, e40, e41, -⟩ := index_facts t
  show A (((cfg0.win 1).blk t).view.emb (ix2 p k)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega
/-- The weights' and the bias's blocks are the whole arrays at every point. -/
theorem left_read (A : S64x64.Idx → EReal) (t : Fin cfg0.N) (k q : Fin 64) :
    ((cfg0.win 2).blk t).view.read (Elt Ideal) A (ix2 k q) = A (ix2 k q) := by
  obtain ⟨e00, e01, e10, e11, e20, e21, e30, e31, e40, e41, -⟩ := index_facts t
  show A (((cfg0.win 2).blk t).view.emb (ix2 k q)) = A (ix2 k q)
  refine congrArg A (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem right_read (A : S64x64.Idx → EReal) (t : Fin cfg0.N) (k q : Fin 64) :
    ((cfg0.win 3).blk t).view.read (Elt Ideal) A (ix2 k q) = A (ix2 k q) := by
  obtain ⟨e00, e01, e10, e11, e20, e21, e30, e31, e40, e41, -⟩ := index_facts t
  show A (((cfg0.win 3).blk t).view.emb (ix2 k q)) = A (ix2 k q)
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem bias_read (A : S1x64.Idx → EReal) (t : Fin cfg0.N) (q : Fin 64) :
    ((cfg0.win 4).blk t).view.read (Elt Ideal) A (ix2 (0 : Fin 1) q) = A (ix2 (0 : Fin 1) q) := by
  obtain ⟨e00, e01, e10, e11, e20, e21, e30, e31, e40, e41, -⟩ := index_facts t
  show A (((cfg0.win 4).blk t).view.emb (ix2 (0 : Fin 1) q)) = A (ix2 (0 : Fin 1) q)
  refine congrArg A (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega
/-- An entry `j` of point `t`'s output block sits in the result array at row `5000 · (block index) + (row of j)` and at
    `j`'s column. -/
theorem out_emb (t : Fin cfg0.N) (j : S5000x64.Idx) (r : Fin 100000) (hr : r.val = win0_5.index t (0 : Fin 2) * 5000 + (j 0).val) :
    ((cfg0.win 5).blk t).view.emb j = (ix2 r (j 1) : S100000x64.Idx) := by
  obtain ⟨-, -, -, -, -, -, -, -, -, -, e50, e51⟩ := index_facts t
  funext a; apply Fin.ext
  match a with
  | ⟨0, _⟩ => show win0_5.index t (0 : Fin 2) * 5000 + 1 * (j 0).val = r.val; omega
  | ⟨1, _⟩ => show win0_5.index t (1 : Fin 2) * 64 + 1 * (j 1).val = (j 1).val; omega

end Cert.Proof.BlockReads

end
-- ==== Proof.WrittenBack.lean ====
/-
  What one point of the launch writes back.

  An entry of the layer's result depends on the feature arrays only through its own row. Point `t` computes, from its
  blocks of rows of the two feature arrays and the whole weights and bias row, the rows `5000·t … 5000·t + 4999` of
  `TwoHalves.out`; so what it writes back is the block of rows `t` of `TwoHalves.out` of the WHOLE arrays under the
  windows. Proved first for arbitrary arrays under the five input windows, then read at the arrays the launch finds.
-/
import proofs.«179269_j74526272520731_1_alg».proof.Proof.Gen.KernelIdeal.Value
import proofs.«179269_j74526272520731_1_alg».proof.Proof.BlockEntry
import proofs.«179269_j74526272520731_1_alg».proof.Proof.BlockReads
import proofs.«179269_j74526272520731_1_alg».proof.Proof.TwoHalves

set_option maxRecDepth 16384

noncomputable section

namespace Cert.Proof.WrittenBack

open Cert.KernelIdeal Cert.KernelIdeal.Gen Idealize.ShloMosaic Idealize.ShloMosaic.TcCoe Idealize.SL.Sem
  Idealize.ShloMosaic.ValueIdx
open Idealize.ShloMosaic.Pipeline (Dat)
open Cert.Proof Cert.Proof.BlockReads

variable (m : (ℓ : Loc nD τ sig) → Buf (Elt Ideal) ℓ) (ρ : Dev nD → PrngReg)

theorem zero_offsets : (![0, 0] : Fin 2 → Nat) = fun _ => 0 := funext fun a => by fin_cases a <;> rfl

/-- The body's stored block at point `t`, computed from the blocks of ANY five arrays under the input windows, is block
    `t` of `TwoHalves.out` of those arrays. -/
theorem block_of_out (A0 A1 : S100000x64.Idx → EReal) (A2 A3 : S64x64.Idx → EReal) (A4 : S1x64.Idx → EReal) (t : Fin cfg0.N)
    (j : S5000x64.Idx) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) j
      = TwoHalves.out (R := 100000) A0 A1 A2 A3 A4 (((cfg0.win 5).blk t).view.emb j) := by
  refine (BlockEntry.stored_at (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) j).trans ?_
  obtain ⟨-, -, -, -, -, -, -, -, -, -, e50, e51⟩ := index_facts t
  have hj0 : (j 0).val < 5000 := (j 0).isLt
  have hr : win0_5.index t (0 : Fin 2) * 5000 + (j 0).val < 100000 := by omega
  rw [out_emb t j ⟨win0_5.index t (0 : Fin 2) * 5000 + (j 0).val, hr⟩ rfl]
  refine Eq.trans ?_ (TwoHalves.out_ix2 (R := 100000) A0 A1 A2 A3 A4 ⟨win0_5.index t (0 : Fin 2) * 5000 + (j 0).val, hr⟩ (j 1)).symm
  exact TwoHalves.entry_congr (R := 5000) (R' := 100000) (((cfg0.win 0).blk t).view.read (Elt Ideal) A0)
    (((cfg0.win 1).blk t).view.read (Elt Ideal) A1) A0 A1
    (((cfg0.win 2).blk t).view.read (Elt Ideal) A2) (((cfg0.win 3).blk t).view.read (Elt Ideal) A3) A2 A3
    (((cfg0.win 4).blk t).view.read (Elt Ideal) A4) A4 (j 0) ⟨win0_5.index t (0 : Fin 2) * 5000 + (j 0).val, hr⟩ (j 1)
    (fun k => self_read A0 t (j 0) k _ rfl) (fun k => means_read A1 t (j 0) k _ rfl)
    (fun k => left_read A2 t k (j 1)) (fun k => right_read A3 t k (j 1)) (bias_read A4 t (j 1))

/-- The result over the whole arrays as the launch finds them. -/
def found (c : Dev nD) : S100000x64.Idx → EReal :=
  TwoHalves.out (R := 100000) (V m c (Pipeline.arrRef spec0 0) : S100000x64.Idx → EReal) (V m c (Pipeline.arrRef spec0 1) : S100000x64.Idx → EReal)
    (V m c (Pipeline.arrRef spec0 2) : S64x64.Idx → EReal) (V m c (Pipeline.arrRef spec0 3) : S64x64.Idx → EReal)
    (V m c (Pipeline.arrRef spec0 4) : S1x64.Idx → EReal)

/-- The five arrays, by the names of the buffers the windows are over. -/
theorem found_eq (c : Dev nD) :
    found m c = TwoHalves.out (R := 100000) (V m c main_arg1 : S100000x64.Idx → EReal) (V m c main_v18 : S100000x64.Idx → EReal)
      (V m c main_v20 : S64x64.Idx → EReal) (V m c main_v22 : S64x64.Idx → EReal) (V m c main_v23 : S1x64.Idx → EReal) := rfl

/-- WHAT POINT `t` WRITES BACK is block `t` of `TwoHalves.out` of the whole arrays the launch finds. -/
theorem flushed_eq (c : Dev nD) (t : Fin cfg0.N) :
    (dats m 0 c).flushed 5 t = ((cfg0.win 5).blk t).view.read (Elt Ideal) (found m c) := by
  rw [Value.flushed5]
  unfold out0_5
  rw [View.canon_unit_zero zero_offsets]
  simp only [View.ld_unit_zero (S := S5000x64) zero_offsets, View.ld_unit_zero (S := S64x64) zero_offsets,
    View.ld_unit_zero (S := S1x64) zero_offsets]
  unfold iblk found
  funext j
  exact block_of_out (V m c (Pipeline.arrRef spec0 0)) (V m c (Pipeline.arrRef spec0 1)) (V m c (Pipeline.arrRef spec0 2))
    (V m c (Pipeline.arrRef spec0 3)) (V m c (Pipeline.arrRef spec0 4)) t j

end Cert.Proof.WrittenBack

end
-- ==== Proof.Found.lean ====
/-
  What the kernel's one launch finds in the four arrays the host computes before it.

  Before the launch the host gathers the source rows along the edges, adds them into their destination rows, counts
  each destination's edges, and divides each summed row by its count (at least one): the neighbour means, one
  function `neighbourMean` of the source features and the two edge index arrays. It also cuts the 64 × 128 weight into
  its left and right 64 × 64 halves and transposes each, and reshapes the 64 biases into a `[1, 64]` row. The launch's
  windows over these arrays read exactly those terms of the arguments as launched.
-/
import proofs.«179269_j74526272520731_1_alg».proof.Proof.Gen.KernelIdeal.Frame
import Idealize.ShloMosaic.Lib.StableHlo.Run
import Idealize.ShloMosaic.PureOps.Ideal

noncomputable section

namespace Cert.Proof.Found

open Cert.KernelIdeal Cert.KernelIdeal.Gen Idealize.ShloMosaic Idealize.ShloMosaic.TcCoe Idealize.SL.Sem
  Idealize.ShloMosaic.StableHlo

/-- The neighbour means: gather the source rows `x0` at the (wrapped) source indices `x2`, add them into the rows the
    destination indices `x3` name, and divide row by row by `max (number of edges into the row) 1`. Carried as one
    function: nothing in the certificate looks inside it. -/
def neighbourMean (x0 : (⟨S100000x64, .f32⟩ : BufTy).Contents (Elt Ideal)) (x2 x3 : (⟨S1000000, .i32⟩ : BufTy).Contents (Elt Ideal)) :
    (⟨S100000x64, .f32⟩ : BufTy).Contents (Elt Ideal) :=
  Host.divf (F := Ideal) (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 (x3)) (Host.gather gather_S100000x64_S1000000x1_S1000000x64_1_0_n_n_0_1_164 (x0) (broadcastInDim S1000000x1 ![0] bcast_S1000000_S1000000x1_0 (select (cmpi .slt (x2) (broadcastInDim S1000000 ![] bcast_S_S1000000 (constantI S_ 32 0#32))) (addi (x2) (broadcastInDim S1000000 ![] bcast_S_S1000000 (constantI S_ 32 100000#32))) (x2))))) (broadcastInDim S100000x64 ![0, 1] bcast_S100000x1_S100000x64_0_1 (broadcastInDim S100000x1 ![0] bcast_S100000_S100000x1_0 (maximumf (F := Ideal) (Host.scatterAdd (F := Ideal) scatter_S100000_S1000000x1_S1000000_n_0_0_1 (broadcastInDim S100000 ![] bcast_S_S100000 (constant (F := Ideal) S_ .f32 0x00000000#32)) (broadcastInDim S1000000x1 ![0] bcast_S1000000_S1000000x1_0 (x3)) (broadcastInDim S1000000 ![] bcast_S_S1000000 (constant (F := Ideal) S_ .f32 0x3F800000#32))) (broadcastInDim S100000 ![] bcast_S_S100000 (constant (F := Ideal) S_ .f32 0x3F800000#32)))))

variable (m : (ℓ : Loc nD τ sig) → Buf (Elt Ideal) ℓ)

/-- The launch's second window reads the neighbour means of the launched arguments. -/
theorem found_means (c : Dev nD) :
    (V m c main_v18 : S100000x64.Idx → EReal)
      = neighbourMean (m ((c : Thread nD τ).loc main_arg0)) (m ((c : Thread nD τ).loc main_arg2)) (m ((c : Thread nD τ).loc main_arg3)) := by
  dsimp only [Gen.V, Gen.hostOps0]
  after_results_simp <;> rfl

/-- Its third window reads the transposed left half of the weight, -/
theorem found_left (c : Dev nD) :
    (V m c main_v20 : S64x64.Idx → EReal)
      = transpose S64x64 [1, 0] (extractStridedSlice S64x64 ![0, 0] (m ((c : Thread nD τ).loc main_arg4)) slices_S64x128_S64x64_0_0)
          transposes_S64x64_S64x64_1_0 := by
  dsimp only [Gen.V, Gen.hostOps0]
  after_results_simp <;> rfl

/-- its fourth the transposed right half, -/
theorem found_right (c : Dev nD) :
    (V m c main_v22 : S64x64.Idx → EReal)
      = transpose S64x64 [1, 0] (extractStridedSlice S64x64 ![0, 64] (m ((c : Thread nD τ).loc main_arg4)) slices_S64x128_S64x64_0_64)
          transposes_S64x64_S64x64_1_0 := by
  dsimp only [Gen.V, Gen.hostOps0]
  after_results_simp <;> rfl

/-- and its fifth the biases as a `[1, 64]` row. -/
theorem found_bias (c : Dev nD) :
    (V m c main_v23 : S1x64.Idx → EReal)
      = shapeCast S1x64 (m ((c : Thread nD τ).loc main_arg5)) shapeCasts_S64_S1x64 := by
  dsimp only [Gen.V, Gen.hostOps0]
  after_results_simp <;> rfl

end Cert.Proof.Found

end
-- ==== Proof.WholeArray.lean ====
/-
  From blocks of rows to the whole result array.

  Row `r` of the result lies in the block of the point `r / 5000`, so the 20 blocks the points write back cover the
  result array; each is a block of `TwoHalves.out` of the arrays the launch finds, so the array ends as that function
  whole. What the launch finds is known in terms of the arguments: the self features as launched, the neighbour means,
  the weight's two transposed halves and the bias row. So the result array ends as one function `result` of the six
  arguments, and the kernel's run is re-posted with it.
-/
import proofs.«179269_j74526272520731_1_alg».proof.Proof.Gen.KernelIdeal.Value
import proofs.«179269_j74526272520731_1_alg».proof.Proof.WrittenBack
import proofs.«179269_j74526272520731_1_alg».proof.Proof.Found
import proofs.«179269_j74526272520731_1_alg».proof.Proof.TwoHalves
import Idealize.ShloMosaic.Lib.ValueLayout

set_option maxRecDepth 16384

noncomputable section

namespace Cert.Proof.WholeArray

open Cert.KernelIdeal Cert.KernelIdeal.Gen Idealize.ShloMosaic Idealize.ShloMosaic.TcCoe Idealize.SL.Sem
  Idealize.ShloMosaic.ValueIdx
open Idealize.ShloMosaic.Pipeline (Dat)
open Cert.Proof Cert.Proof.BlockReads Cert.Proof.WrittenBack

variable (m : (ℓ : Loc nD τ sig) → Buf (Elt Ideal) ℓ) (ρ : Dev nD → PrngReg)

/-! ## The blocks cover the array -/

/-- An index of the result is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- Row `r` is written back by the point whose row block is `r / 5000`. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-! ## The array after the run, and the run -/

/-- The result array after the run, over what the launch finds. -/
theorem final_found (c : Dev nD) : (dats m 0 c).arrAt 5 cfg0.N = found m c :=
  (dats m 0 c).arrAt_eq_of_cover 5 (found m c) (fun t _ => flushed_eq m c t) covered

/-- The result as a function of the arguments: the self features and the neighbour means of the source features
    along the edges, against the weight's transposed halves, plus the bias row. -/
def result (x0 x1 : (⟨S100000x64, .f32⟩ : BufTy).Contents (Elt Ideal)) (x2 x3 : (⟨S1000000, .i32⟩ : BufTy).Contents (Elt Ideal))
    (x4 : (⟨S64x128, .f32⟩ : BufTy).Contents (Elt Ideal)) (x5 : (⟨S64, .f32⟩ : BufTy).Contents (Elt Ideal)) :
    S100000x64.Idx → EReal :=
  TwoHalves.out (R := 100000) x1 (Found.neighbourMean x0 x2 x3) (TwoHalves.leftHalfT x4) (TwoHalves.rightHalfT x4) (TwoHalves.biasRow x5)

/-- The transposed left half of the weight as the host cut it is `leftHalfT`, -/
theorem left_eq (W : S64x128.Idx → EReal) :
    transpose S64x64 [1, 0] (extractStridedSlice S64x64 ![0, 0] W slices_S64x128_S64x64_0_0) transposes_S64x64_S64x64_1_0
      = TwoHalves.leftHalfT W := by
  funext j
  obtain ⟨k, q, rfl⟩ : ∃ (k q : Fin 64), j = ix2 k q := ⟨j 0, j 1, eq_ix2 j⟩
  rw [transpose_ix2_apply, slice2_axis1_apply 0 W slices_S64x128_S64x64_0_0 q k ⟨k.val, by have := k.isLt; omega⟩ (by show k.val = 0 + k.val; omega)]
  rfl

/-- the right half `rightHalfT`, -/
theorem right_eq (W : S64x128.Idx → EReal) :
    transpose S64x64 [1, 0] (extractStridedSlice S64x64 ![0, 64] W slices_S64x128_S64x64_0_64) transposes_S64x64_S64x64_1_0
      = TwoHalves.rightHalfT W := by
  funext j
  obtain ⟨k, q, rfl⟩ : ∃ (k q : Fin 64), j = ix2 k q := ⟨j 0, j 1, eq_ix2 j⟩
  rw [transpose_ix2_apply, slice2_axis1_apply 64 W slices_S64x128_S64x64_0_64 q k ⟨64 + k.val, by have := k.isLt; omega⟩ rfl]
  rfl

/-- and the reshaped biases `biasRow`. -/
theorem bias_eq (b : S64.Idx → EReal) : shapeCast S1x64 b shapeCasts_S64_S1x64 = TwoHalves.biasRow b := by
  funext j
  obtain ⟨u, q, rfl⟩ : ∃ (u : Fin 1) (q : Fin 64), j = ix2 u q := ⟨j 0, j 1, eq_ix2 j⟩
  rw [shapeCast_a_1a_apply]
  rfl

/-- The result array after the run, as a function of the arguments as launched. -/
theorem final (c : Dev nD) :
    (dats m 0 c).arrAt 5 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [final_found, found_eq]
  unfold result
  rw [Found.found_means, Found.found_left, Found.found_right, Found.found_bias, left_eq, right_eq, bias_eq, V_main_arg1]

/-- THE KERNEL'S RUN at the ideal values: every weakly fair execution terminates with the result array at `result` of
    the arguments, the arguments unchanged. -/
theorem run : θ_run defs (onTc (τ := τ) (main (F := Ideal))) ⟨m, fun _ => 0, ρ⟩ fun r => ∀ c : Dev nD,
      r.2.mem ((c : Thread nD τ).loc main_v24)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Proof.WholeArray

end
-- ==== Proof.LibConcatSum.lean ====
/-
  A sum over `N = A + B` positions falls into the sum over the first `A` and the sum over the last `B`:
  how a contraction against a concatenation of two rows becomes two contractions, each row against its
  half of the weight.
-/
import Mathlib.Algebra.BigOperators.Fin
import Idealize.ShloMosaic.Lib.Pipeline.Value
import Idealize.ShloMosaic.Lib.ValueIdx

namespace Cert.Proof.LibConcatSum

theorem sum_split {M : Type} [AddCommMonoid M] (A B N : ℕ) (hN : A + B = N) (f : Fin N → M) :
    ∑ k : Fin N, f k
      = ∑ k : Fin A, f ⟨k.val, by have := k.isLt; omega⟩ + ∑ k : Fin B, f ⟨A + k.val, by have := k.isLt; omega⟩ := by
  subst hN
  rw [Fin.sum_univ_add]
  rfl

open Idealize.ShloMosaic Idealize.ShloMosaic.ValueIdx

variable {α : Type} {P H₁ H₂ N : ℕ}

/-- Two blocks of columns laid side by side, read at a column of the first block. -/
theorem concat_cols_left (x₁ : (⟨2, ![P, H₁]⟩ : Shape).Idx → α) (x₂ : (⟨2, ![P, H₂]⟩ : Shape).Idx → α)
    (h : Shape.Concatenates [⟨2, ![P, H₁]⟩, ⟨2, ![P, H₂]⟩] ⟨2, ![P, N]⟩ 1) (p : Fin P) (k : Fin N) (hk : k.val < H₁) :
    concatenate ⟨2, ![P, N]⟩ 1 [⟨⟨2, ![P, H₁]⟩, x₁⟩, ⟨⟨2, ![P, H₂]⟩, x₂⟩] h (ix2 p k) = x₁ (ix2 p ⟨k.val, hk⟩) :=
  concatenate_pair_apply_left 1 x₁ x₂ h (ix2 p k) rfl (ix2 p ⟨k.val, hk⟩)
    (fun b => match b with | ⟨0, _⟩ => rfl | ⟨1, _⟩ => rfl)

/-- … and at a column of the second block. -/
theorem concat_cols_right (x₁ : (⟨2, ![P, H₁]⟩ : Shape).Idx → α) (x₂ : (⟨2, ![P, H₂]⟩ : Shape).Idx → α)
    (h : Shape.Concatenates [⟨2, ![P, H₁]⟩, ⟨2, ![P, H₂]⟩] ⟨2, ![P, N]⟩ 1) (p : Fin P) (k : Fin N) (hk : H₁ ≤ k.val)
    (hk2 : k.val - H₁ < H₂) :
    concatenate ⟨2, ![P, N]⟩ 1 [⟨⟨2, ![P, H₁]⟩, x₁⟩, ⟨⟨2, ![P, H₂]⟩, x₂⟩] h (ix2 p k) = x₂ (ix2 p ⟨k.val - H₁, hk2⟩) :=
  concatenate_pair_apply_right 1 x₁ x₂ h (ix2 p k) rfl rfl (ix2 p ⟨k.val - H₁, hk2⟩)
    (fun b hb => match b, hb with
      | ⟨0, _⟩, _ => rfl
      | ⟨1, _⟩, hb => absurd rfl hb)
    (by show (k.val - H₁) + H₁ = k.val; omega)

/-- Four single columns laid side by side: column `j` of the result is the `j`-th piece. -/
theorem concat_cols4_apply {H : ℕ} (u : Fin 4 → ((⟨2, ![H, 1]⟩ : Shape).Idx → α))
    (h : Shape.Concatenates [⟨2, ![H, 1]⟩, ⟨2, ![H, 1]⟩, ⟨2, ![H, 1]⟩, ⟨2, ![H, 1]⟩] ⟨2, ![H, 4]⟩ 1) (r : Fin H) (j : Fin 4) :
    concatenate ⟨2, ![H, 4]⟩ 1
        [⟨⟨2, ![H, 1]⟩, u 0⟩, ⟨⟨2, ![H, 1]⟩, u 1⟩, ⟨⟨2, ![H, 1]⟩, u 2⟩, ⟨⟨2, ![H, 1]⟩, u 3⟩] h (ix2 r j)
      = u j (ix2 r (0 : Fin 1)) := by
  have hi : ∀ b : Fin 2, b.cast rfl ≠ (1 : Fin 2) → ((ix2 r (0 : Fin 1) : (⟨2, ![H, 1]⟩ : Shape).Idx) b).val
      = ((ix2 r j : (⟨2, ![H, 4]⟩ : Shape).Idx) (b.cast rfl)).val := fun b hb =>
    match b, hb with
    | ⟨0, _⟩, _ => rfl
    | ⟨1, _⟩, hb => absurd rfl hb
  fin_cases j
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 0 (by simp) ⟨2, ![H, 1]⟩ (u 0) rfl rfl 0 rfl _ hi rfl
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 1 (by simp) ⟨2, ![H, 1]⟩ (u 1) rfl rfl 1 rfl _ hi rfl
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 2 (by simp) ⟨2, ![H, 1]⟩ (u 2) rfl rfl 2 rfl _ hi rfl
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 3 (by simp) ⟨2, ![H, 1]⟩ (u 3) rfl rfl 3 rfl _ hi rfl

end Cert.Proof.LibConcatSum
-- ==== Proof.RefEntry.lean ====
/-
  The reference's result, entry by entry.

  The reference lays the self features and the neighbour means side by side as a 100000 × 128 array, multiplies it
  with the transposed 64 × 128 weight (one contraction over 128 positions) and adds the biases to every row. A sum
  over 128 positions is the sum over the first 64 plus the sum over the last 64; on the first 64 the concatenation
  reads the self features and the transposed weight its left half, on the last 64 the neighbour means and the right
  half. So the entry `(p, q)` is the two half-width products plus the bias: `TwoHalves.entry`. Only that a finite sum
  may be regrouped is used, which holds for the extended reals' addition without any finiteness.
-/
import proofs.«179269_j74526272520731_1_alg».proof.Proof.Gen.ReferenceIdeal.Read
import proofs.«179269_j74526272520731_1_alg».proof.Proof.TwoHalves
import proofs.«179269_j74526272520731_1_alg».proof.Proof.LibConcatSum

noncomputable section

namespace Cert.Proof.RefEntry

open Cert.ReferenceIdeal Cert.ReferenceIdeal.Gen Cert.ReferenceIdeal.Read Idealize.ShloMosaic Idealize.ShloMosaic.ValueIdx
open Cert.Proof.LibConcatSum Cert.Proof

/-- The contraction reads the concatenation at `(p, k)`, -/
theorem lidx_eq (p : Fin 100000) (q : Fin 64) (k : Fin 128) : lidx_main_v21 (ix2 p q) k = (ix2 p k : S100000x128.Idx) :=
  funext fun a => Fin.ext (by match a with | ⟨0, _⟩ => rfl | ⟨1, _⟩ => rfl)

/-- and the weight, through its transpose, at `(q, k)`. -/
theorem ridx_eq (p : Fin 100000) (q : Fin 64) (k : Fin 128) :
    idx_main_v20 (ridx_main_v21 (ix2 p q) k) = (ix2 q k : S64x128.Idx) :=
  funext fun a => Fin.ext (by match a with | ⟨0, _⟩ => rfl | ⟨1, _⟩ => rfl)

/-- The bias broadcast to every row reads the bias at `q`. -/
theorem bidx_eq (p : Fin 100000) (q : Fin 64) : idx_main_v22 (idx_main_v23 (ix2 p q)) = (ix1 q : S64.Idx) :=
  funext fun a => Fin.ext (by match a with | ⟨0, _⟩ => rfl)

/-- THE REFERENCE'S ENTRY `(p, q)`: the self row against the weight's left half, the neighbour-mean row against its right
    half, plus the bias. -/
theorem ref_entry (x0 x1 : (⟨S100000x64, .f32⟩ : BufTy).Contents (Elt Ideal)) (x2 x3 : (⟨S1000000, .i32⟩ : BufTy).Contents (Elt Ideal))
    (x4 : (⟨S64x128, .f32⟩ : BufTy).Contents (Elt Ideal)) (x5 : (⟨S64, .f32⟩ : BufTy).Contents (Elt Ideal)) (p : Fin 100000) (q : Fin 64) :
    val_main_v24 (F := Ideal) x0 x1 x2 x3 x4 x5 (ix2 p q)
      = TwoHalves.entry x1 (val_main_v18 (F := Ideal) x0 x2 x3) (TwoHalves.leftHalfT x4) (TwoHalves.rightHalfT x4) (TwoHalves.biasRow x5) p q := by
  rw [val_main_v24_apply, val_main_v21_apply, val_main_v23_apply, val_main_v22_apply, Ideal.addf_def]
  simp only [val_main_v20_apply, lidx_eq, ridx_eq, bidx_eq]
  unfold val_main_v19 TwoHalves.entry
  rw [sum_split 64 64 128 rfl]
  refine congrArg₂ (· + ·) (congrArg₂ (· + ·) (Finset.sum_congr rfl fun k _ => ?_) (Finset.sum_congr rfl fun k _ => ?_)) rfl
  · rw [concat_cols_left x1 (val_main_v18 (F := Ideal) x0 x2 x3) concatenates_S100000x64_S100000x64_S100000x128_d1 p _ k.isLt]
    rfl
  · rw [concat_cols_right x1 (val_main_v18 (F := Ideal) x0 x2 x3) concatenates_S100000x64_S100000x64_S100000x128_d1 p _
      (Nat.le_add_right 64 k.val) (by show 64 + k.val - 64 < 64; have := k.isLt; omega)]
    have e : (⟨64 + k.val - 64, by have := k.isLt; omega⟩ : Fin 64) = k := Fin.ext (by show 64 + k.val - 64 = k.val; omega)
    rw [e]
    rfl

end Cert.Proof.RefEntry

end
-- ==== Proof.SameFunction.lean ====
/-
  The two programs compute one function.

  Both apply the SAME host operations to the source features and the edge indices to get the neighbour means, so that
  part is one function on both sides and is never opened. The reference then contracts the concatenation
  `[self | neighbour mean]` with the whole transposed weight over 128 positions; the kernel contracts the two halves
  separately over 64 positions each and adds. Entry by entry these are the same extended real (a finite sum regrouped),
  so the reference's result is the kernel's `result` of the arguments.
-/
import proofs.«179269_j74526272520731_1_alg».proof.Proof.RefEntry
import proofs.«179269_j74526272520731_1_alg».proof.Proof.WholeArray

noncomputable section

namespace Cert.Proof.SameFunction

open Idealize.ShloMosaic Idealize.ShloMosaic.ValueIdx
open Cert.Proof

/-- The neighbour means as the reference's text spells them are the neighbour means as the kernel's host code spells
    them: the same operations with the same dimension records. -/
theorem means_eq (x0 : (⟨Cert.ReferenceIdeal.S100000x64, .f32⟩ : BufTy).Contents (Elt Ideal))
    (x2 x3 : (⟨Cert.ReferenceIdeal.S1000000, .i32⟩ : BufTy).Contents (Elt Ideal)) :
    Cert.ReferenceIdeal.Read.val_main_v18 (F := Ideal) x0 x2 x3 = Found.neighbourMean x0 x2 x3 := rfl

/-- THE REFERENCE'S RESULT is the kernel's function of the arguments. -/
theorem ref_result (x0 x1 : (⟨Cert.ReferenceIdeal.S100000x64, .f32⟩ : BufTy).Contents (Elt Ideal))
    (x2 x3 : (⟨Cert.ReferenceIdeal.S1000000, .i32⟩ : BufTy).Contents (Elt Ideal))
    (x4 : (⟨Cert.ReferenceIdeal.S64x128, .f32⟩ : BufTy).Contents (Elt Ideal)) (x5 : (⟨Cert.ReferenceIdeal.S64, .f32⟩ : BufTy).Contents (Elt Ideal)) :
    Cert.ReferenceIdeal.Read.val_main_v24 (F := Ideal) x0 x1 x2 x3 x4 x5 = WholeArray.result x0 x1 x2 x3 x4 x5 := by
  funext i
  obtain ⟨p, q, rfl⟩ : ∃ (p : Fin 100000) (q : Fin 64), i = ix2 p q := ⟨i 0, i 1, eq_ix2 i⟩
  rw [RefEntry.ref_entry, means_eq]
  rfl

end Cert.Proof.SameFunction

end
-- ==== Proof.lean ====
/-
  The layer `out = [h_dst | mean of h_src over incoming edges] · Wᵀ + bias` over 100000 nodes, 1000000 edges and 64
  features: the kernel against its reference, at the ideal values (extended reals, exact operations).

  Both programs compute the neighbour means with the same host operations (gather along the edges, add into the
  destination rows, divide by the in-degree or one). The reference concatenates the self features with the means and
  multiplies by the whole transposed 64 × 128 weight; the kernel cuts the weight into its two 64 × 64 halves on the host
  and, in one launch over 20 blocks of 5000 rows, multiplies each half with its own features on the matrix unit, adds
  the two products and the bias row. The two results are equal entry by entry: a sum over 128 positions is the sum over
  the first 64 plus the sum over the last 64. That regrouping holds for the extended reals' addition as it stands, so
  the finiteness of the inputs is not used.

  Frames: the two kernels' are the generated frame certificates; the reference's is its generated run with the result
  dropped. The idealization rewrote nothing, so `preserves` is trivial. The kernel's result array is read off the
  generated blockwise value leg (Proof/WholeArray.lean), the reference's off its generated run and read-at-an-index
  lemmas (Proof/RefEntry.lean); Proof/SameFunction.lean joins them.
-/
import proofs.«179269_j74526272520731_1_alg».proof.Defs
import proofs.«179269_j74526272520731_1_alg».proof.Proof.Gen.Kernel
import proofs.«179269_j74526272520731_1_alg».proof.Proof.Gen.Kernel.Skeleton
import proofs.«179269_j74526272520731_1_alg».proof.Proof.Gen.Kernel.Launch
import proofs.«179269_j74526272520731_1_alg».proof.Proof.Gen.Kernel.Points
import proofs.«179269_j74526272520731_1_alg».proof.Proof.Gen.Kernel.Frame
import proofs.«179269_j74526272520731_1_alg».proof.Proof.Gen.KernelIdeal
import proofs.«179269_j74526272520731_1_alg».proof.Proof.Gen.KernelIdeal.Skeleton
import proofs.«179269_j74526272520731_1_alg».proof.Proof.Gen.KernelIdeal.Launch
import proofs.«179269_j74526272520731_1_alg».proof.Proof.Gen.KernelIdeal.Points
import proofs.«179269_j74526272520731_1_alg».proof.Proof.Gen.KernelIdeal.Frame
import proofs.«179269_j74526272520731_1_alg».proof.Proof.Gen.ReferenceIdeal
import proofs.«179269_j74526272520731_1_alg».proof.Proof.Gen.Pre_finite_inputs
import proofs.«179269_j74526272520731_1_alg».proof.Proof.Gen.KernelIdeal.Value
import proofs.«179269_j74526272520731_1_alg».proof.Proof.Gen.ReferenceIdeal.Run
import proofs.«179269_j74526272520731_1_alg».proof.Proof.Gen.ReferenceIdeal.Read
import proofs.«179269_j74526272520731_1_alg».proof.Proof.WholeArray
import proofs.«179269_j74526272520731_1_alg».proof.Proof.SameFunction
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `WholeArray.result` of the
    arguments: the kernel by its run read block by block, the reference by its run read entry by entry. -/
theorem algebraic : Cert.algebraic_KernelIdeal_ReferenceIdeal := by
  intro m ρ m' ρ' _ hagree
  refine ⟨_, Cert.Proof.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v24_eq _ _ _ _ _ _).trans (Cert.Proof.SameFunction.ref_result _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
